-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S32 .f32) (main_arg6 : FVec F S32x64 .f32) (main_arg7 : FVec F S64 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg6
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x32 .f32) (main_arg3 : FVec F S32 .f32) (main_arg4 : FVec F S32x32 .f32) (main_arg5 : FVec F S32 .f32) (main_arg6 : FVec F S32x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x32 : Shape := ⟨2, ![1, 32]⟩
abbrev S100000x32 : Shape := ⟨2, ![100000, 32]⟩
abbrev S5000x64 : Shape := ⟨2, ![5000, 64]⟩
abbrev S5000x32 : Shape := ⟨2, ![5000, 32]⟩
abbrev S1600000x32 : Shape := ⟨2, ![1600000, 32]⟩
abbrev S1x64 : Shape := ⟨2, ![1, 64]⟩

abbrev nBuf : Space → Nat
  | .hbm => 43
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S1x32, .f32⟩
  | .hbm, ⟨26, _⟩ => ⟨S1x32, .f32⟩
  | .hbm, ⟨27, _⟩ => ⟨S100000x32, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x32, .f32⟩
  | .hbm, ⟨37, _⟩ => ⟨S_, .f32⟩
  | .hbm, ⟨38, _⟩ => ⟨S100000x32, .f32⟩
  | .hbm, ⟨39, _⟩ => ⟨S1600000x1, .i32⟩
  | .hbm, ⟨40, _⟩ => ⟨S100000x32, .f32⟩
  | .hbm, ⟨41, _⟩ => ⟨S1x64, .f32⟩
  | .hbm, ⟨42, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x32, .f32⟩
  | .local _ .vmem, ⟨5, _⟩ => ⟨S1x32, .f32⟩
  | .local _ .vmem, ⟨6, _⟩ => ⟨S32x32, .f32⟩
  | .local _ .vmem, ⟨7, _⟩ => ⟨S1x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x32, .f32⟩
  | .local _ .vmem, ⟨14, _⟩ => ⟨S32x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S32_S1x32 : S32.ShapeCasts S1x32
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  shapeCasts_S64_S1x64 : S64.ShapeCasts S1x64
  shapeCasts_S5000x32_S5000x32 : S5000x32.ShapeCasts S5000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  dot_S5000x32_S32x32_S5000x32_1_0_0_1_n_n_wf : DotDims.WF S5000x32 S32x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x64_S5000x64_1_0_0_1_n_n_wf : DotDims.WF S5000x32 S32x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x32.size a ≤ S100000x32.size a
  hwx0_6 : ∀ i : grid0.Coords, EltTy.bits .f32 = 32 ∨ (Rect.block (s := S100000x32) S5000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x32 : Shape := ⟨2, ![100000, 32]⟩
abbrev S1x32 : Shape := ⟨2, ![1, 32]⟩
abbrev S1600000x32 : Shape := ⟨2, ![1600000, 32]⟩
abbrev S1x64 : Shape := ⟨2, ![1, 64]⟩

abbrev nBuf : Space → Nat
  | .hbm => 61
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S100000x64, .f32⟩
  | .hbm, ⟨26, _⟩ => ⟨S100000x32, .f32⟩
  | .hbm, ⟨27, _⟩ => ⟨S1x32, .f32⟩
  | .hbm, ⟨28, _⟩ => ⟨S100000x32, .f32⟩
  | .hbm, ⟨29, _⟩ => ⟨S100000x32, .f32⟩
  | .hbm, ⟨30, _⟩ => ⟨S_, .f32⟩
  | .hbm, ⟨31, _⟩ => ⟨S100000x32, .f32⟩
  | .hbm, ⟨32, _⟩ => ⟨S100000x32, .f32⟩
  | .hbm, ⟨33, _⟩ => ⟨S100000x32, .f32⟩
  | .hbm, ⟨34, _⟩ => ⟨S1x32, .f32⟩
  | .hbm, ⟨35, _⟩ => ⟨S100000x32, .f32⟩
  | .hbm, ⟨36, _⟩ => ⟨S100000x32, .f32⟩
  | .hbm, ⟨37, _⟩ => ⟨S_, .f32⟩
  | .hbm, ⟨38, _⟩ => ⟨S100000x32, .f32⟩
  | .hbm, ⟨39, _⟩ => ⟨S100000x32, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x32, .f32⟩
  | .hbm, ⟨49, _⟩ => ⟨S_, .f32⟩
  | .hbm, ⟨50, _⟩ => ⟨S100000x32, .f32⟩
  | .hbm, ⟨51, _⟩ => ⟨S1600000x1, .i32⟩
  | .hbm, ⟨52, _⟩ => ⟨S100000x32, .f32⟩
  | .hbm, ⟨53, _⟩ => ⟨S100000x32, .f32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S100000x64, .f32⟩
  | .hbm, ⟨60, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call1_cst : Ref sig .tc := ⟨.hbm, 37, rfl⟩
abbrev main_call1_v0 : Ref sig .tc := ⟨.hbm, 38, rfl⟩
abbrev main_v24 : Ref sig .tc := ⟨.hbm, 39, rfl⟩
abbrev main_c_1 : Ref sig .tc := ⟨.hbm, 40, rfl⟩
abbrev main_v25 : Ref sig .tc := ⟨.hbm, 41, rfl⟩
abbrev main_v26 : Ref sig .tc := ⟨.hbm, 42, rfl⟩
abbrev main_c_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call2_cst : Ref sig .tc := ⟨.hbm, 58, rfl⟩
abbrev main_call2_v0 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  dot_S100000x32_S32x32_S100000x32_1_0_0_1_n_n_wf : DotDims.WF S100000x32 S32x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf

class Facts : Prop extends Facts₀ where

variable [Facts]
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.LibRowBias.lean ====
/-
  Adding one row to every row of an array, with or without a floor, on the extended reals.

  `rowBias a b` adds the single row `b` (an `[1, N]` array) to every row of the `[M, N]` array `a`;
  `rowBiasFloor z a b` then takes the maximum with `z`, entry by entry. An entry of either depends on the same entry of
  `a` and on its column of `b` only, so a block of rows of the result is the result of that block of rows of `a`
  (`rowBias_rows`, `rowBiasFloor_rows`).
-/
import Idealize.ShloMosaic.PureOps.Ideal
import Idealize.ShloMosaic.Lib.ValueIdx

noncomputable section

namespace Cert.LibRowBias

open Idealize.ShloMosaic Idealize.ShloMosaic.ValueIdx

/-- Every row of `a` plus the one row `b`. -/
def rowBias {M N : ℕ} (a : (⟨2, ![M, N]⟩ : Shape).Idx → EReal) (b : (⟨2, ![1, N]⟩ : Shape).Idx → EReal) :
    (⟨2, ![M, N]⟩ : Shape).Idx → EReal :=
  fun i => a i + b (ix2 (0 : Fin 1) (⟨(i 1).val, idx2_lt1 i⟩ : Fin N))

/-- Every row of `a` plus the one row `b`, floored at `z`. -/
def rowBiasFloor {M N : ℕ} (z : EReal) (a : (⟨2, ![M, N]⟩ : Shape).Idx → EReal) (b : (⟨2, ![1, N]⟩ : Shape).Idx → EReal) :
    (⟨2, ![M, N]⟩ : Shape).Idx → EReal :=
  fun i => max (rowBias a b i) z

theorem rowBias_apply {M N : ℕ} (a : (⟨2, ![M, N]⟩ : Shape).Idx → EReal) (b : (⟨2, ![1, N]⟩ : Shape).Idx → EReal)
    (p : Fin M) (q : Fin N) : rowBias a b (ix2 p q) = a (ix2 p q) + b (ix2 (0 : Fin 1) q) := rfl

theorem rowBiasFloor_apply {M N : ℕ} (z : EReal) (a : (⟨2, ![M, N]⟩ : Shape).Idx → EReal) (b : (⟨2, ![1, N]⟩ : Shape).Idx → EReal)
    (p : Fin M) (q : Fin N) : rowBiasFloor z a b (ix2 p q) = max (a (ix2 p q) + b (ix2 (0 : Fin 1) q)) z := rfl

/-- Rows `o, …, o + R - 1` of `rowBias a b` are `rowBias` of those rows of `a`. -/
theorem rowBias_rows {M R N : ℕ} (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBias ab b y = rowBias a b i := by
  have hM : o + (y 0).val < M := h0 ▸ idx2_lt0 i
  have ey : y = ix2 (⟨(y 0).val, idx2_lt0 y⟩ : Fin R) (⟨(y 1).val, idx2_lt1 y⟩ : Fin N) := by
    funext d; match d with | ⟨0, _⟩ => rfl | ⟨1, _⟩ => rfl
  have ei : i = ix2 (⟨o + (y 0).val, hM⟩ : Fin M) (⟨(y 1).val, idx2_lt1 y⟩ : Fin N) := by
    funext d; match d with | ⟨0, _⟩ => exact Fin.ext h0 | ⟨1, _⟩ => exact Fin.ext h1
  have hab : ab y = a i :=
    (congrArg ab ey).trans ((ha ⟨(y 0).val, idx2_lt0 y⟩ ⟨(y 1).val, idx2_lt1 y⟩ hM).trans (congrArg a ei.symm))
  have hq : (⟨(y 1).val, idx2_lt1 y⟩ : Fin N) = ⟨(i 1).val, idx2_lt1 i⟩ := Fin.ext h1.symm
  unfold rowBias
  rw [hab, hq]

/-- The same with the floor. -/
theorem rowBiasFloor_rows {M R N : ℕ} (z : EReal) (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBiasFloor z ab b y = rowBiasFloor z a b i := by
  unfold rowBiasFloor
  rw [rowBias_rows o a ab b ha y i h0 h1]

end Cert.LibRowBias

end
-- ==== Proof.LibRowBiasHost.lean ====
/-
  The host's spelling of "add one row to every row", read as `rowBias` / `rowBiasFloor`.

  On the host a length-`N` vector is first broadcast to `[1, N]` along axis 1, then to `[M, N]` along both axes, and
  added to an `[M, N]` array; a ReLU then takes the maximum with a broadcast scalar. At entry `(p, q)` both broadcasts
  read the vector at `q`, which is also what the vector RESHAPED to `[1, N]` holds at `(0, q)`: so the host's sum is
  `rowBias` of the array and the reshaped vector, and with the maximum it is `rowBiasFloor` at the scalar's value.
-/
import proofs.«167467_j20538533610166_2_alg».proof.Proof.LibRowBias
import Idealize.ShloMosaic.Lib.Pipeline.Value
import Idealize.ShloMosaic.Lib.ValueLayout

noncomputable section

namespace Cert.LibRowBias

open Idealize.ShloMosaic Idealize.ShloMosaic.ValueIdx

/-- A vector broadcast to one row and then over `M` rows reads, at `(p, q)`, the vector at `q`. -/
theorem bcastRow_apply {α : Type} {M N : ℕ}
    (h1 : (⟨1, ![N]⟩ : Shape).BroadcastsInDim ⟨2, ![1, N]⟩ ![1])
    (h2 : (⟨2, ![1, N]⟩ : Shape).BroadcastsInDim ⟨2, ![M, N]⟩ ![0, 1])
    (x : (⟨1, ![N]⟩ : Shape).Idx → α) (p : Fin M) (q : Fin N) :
    broadcastInDim ⟨2, ![M, N]⟩ ![0, 1] h2 (broadcastInDim ⟨2, ![1, N]⟩ ![1] h1 x) (ix2 p q) = x (ix1 q) := by
  have hq : q.val = if N = 1 then 0 else q.val := by
    split
    · have := q.isLt; omega
    · rfl
  refine (broadcastInDim_apply ![0, 1] h2 (broadcastInDim ⟨2, ![1, N]⟩ ![1] h1 x) (ix2 p q) (ix2 (0 : Fin 1) q) (fun a => ?_)).trans ?_
  · match a with
    | ⟨0, _⟩ => show 0 = if (1 : ℕ) = 1 then 0 else p.val; rw [if_pos rfl]
    | ⟨1, _⟩ => show q.val = if N = 1 then 0 else q.val; exact hq
  · refine broadcastInDim_apply ![1] h1 x (ix2 (0 : Fin 1) q) (ix1 q) (fun a => ?_)
    match a with
    | ⟨0, _⟩ => show q.val = if N = 1 then 0 else q.val; exact hq

/-- The host's sum of an array and a twice-broadcast vector is `rowBias` of the array and the reshaped vector. -/
theorem addf_bcastRow {M N : ℕ} (a : FVec Ideal ⟨2, ![M, N]⟩ .f32) (x : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 x))
      = rowBias (M := M) (N := N) a (shapeCast ⟨2, ![1, N]⟩ x hc) := by
  funext i
  obtain ⟨p, q, rfl⟩ : ∃ (p : Fin M) (q : Fin N), i = ix2 p q :=
    ⟨⟨(i 0).val, idx2_lt0 i⟩, ⟨(i 1).val, idx2_lt1 i⟩, by funext d; match d with | ⟨0, _⟩ => rfl | ⟨1, _⟩ => rfl⟩
  rw [rowBias_apply, shapeCast_a_1a_apply]
  show a (ix2 p q) + broadcastInDim ⟨2, ![M, N]⟩ ![0, 1] h2 (broadcastInDim ⟨2, ![1, N]⟩ ![1] h1 x) (ix2 p q) = _
  rw [bcastRow_apply]

/-- With the ReLU's maximum against a broadcast scalar word `w`: `rowBiasFloor` at the word's value. -/
theorem max_addf_bcastRow {M N : ℕ} (w : BitVec 32) (a : FVec Ideal ⟨2, ![M, N]⟩ .f32) (x : FVec Ideal ⟨1, ![N]⟩ .f32)
    (h0 : (⟨0, ![]⟩ : Shape).BroadcastsInDim ⟨2, ![M, N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 x)))
        (broadcastInDim ⟨2, ![M, N]⟩ ![] h0 (constant (F := Ideal) ⟨0, ![]⟩ .f32 w))
      = rowBiasFloor (M := M) (N := N) (Ideal.ofBits .f32 w) a (shapeCast ⟨2, ![1, N]⟩ x hc) := by
  rw [addf_bcastRow a x h1 h2 hc]
  rfl

end Cert.LibRowBias

end
-- ==== Proof.LibBodyBias.lean ====
/-
  The kernel bodies' "add the bias row, floor at zero", on the extended reals.

  Inside a kernel body a block of `R` rows `a` (an `[R, N]` array) meets the one-row bias `b` (an `[1, N]` array) as
  `max (a + broadcast b) (splat z)`: the bias is broadcast over the rows, and the floor `z` is a scalar splat. Entry
  `(p, q)` is therefore `max (a (p, q) + b (0, q)) z`: the body's expression is `rowBiasFloor z a b`, the same function
  the host's spelling of the rectified bias denotes.
-/
import proofs.«167467_j20538533610166_2_alg».proof.Proof.LibRowBias
import Idealize.ShloMosaic.Lib.Pipeline.Value

noncomputable section

namespace Cert.LibBodyBias

open Idealize.ShloMosaic Idealize.ShloMosaic.ValueIdx Cert.LibRowBias

/-- A one-row array broadcast over `R` rows reads, at `(p, q)`, the row at `(0, q)`. -/
theorem broadcastRow_apply {α : Type} {R N : ℕ} (b : (⟨2, ![1, N]⟩ : Shape).Idx → α)
    (h : (⟨2, ![1, N]⟩ : Shape).Broadcasts ⟨2, ![R, N]⟩) (p : Fin R) (q : Fin N) :
    broadcastTo ⟨2, ![R, N]⟩ b h (ix2 p q) = b (ix2 (0 : Fin 1) q) := by
  have hq : q.val = if N = 1 then 0 else q.val := by
    split
    · have := q.isLt; omega
    · rfl
  refine broadcastTo_apply b h (ix2 p q) (ix2 (0 : Fin 1) q) (fun a => ?_)
  match a with
  | ⟨0, _⟩ => show 0 = if (1 : ℕ) = 1 then 0 else p.val; rw [if_pos rfl]
  | ⟨1, _⟩ => show q.val = if N = 1 then 0 else q.val; exact hq

/-- The body's rectified bias of a block of rows is `rowBiasFloor` at the splat word's value. -/
theorem max_addf_broadcastRow {R N : ℕ} (w : BitVec 32) (a : FVec Ideal ⟨2, ![R, N]⟩ .f32) (b : FVec Ideal ⟨2, ![1, N]⟩ .f32)
    (ha : (⟨2, ![R, N]⟩ : Shape).ShapeCasts ⟨2, ![R, N]⟩) (hb : (⟨2, ![1, N]⟩ : Shape).ShapeCasts ⟨2, ![1, N]⟩)
    (hbc : (⟨2, ![1, N]⟩ : Shape).Broadcasts ⟨2, ![R, N]⟩) :
    maximumf (addf (shapeCast ⟨2, ![R, N]⟩ a ha) (broadcastTo ⟨2, ![R, N]⟩ (shapeCast ⟨2, ![1, N]⟩ b hb) hbc))
        (broadcast ⟨2, ![R, N]⟩ (Scalar.ofBits (F := Ideal) .f32 w))
      = rowBiasFloor (M := R) (N := N) (Ideal.ofBits .f32 w) a b := by
  rw [shapeCast_self, shapeCast_self]
  funext i
  obtain ⟨p, q, rfl⟩ : ∃ (p : Fin R) (q : Fin N), i = ix2 p q :=
    ⟨⟨(i 0).val, idx2_lt0 i⟩, ⟨(i 1).val, idx2_lt1 i⟩, by funext d; match d with | ⟨0, _⟩ => rfl | ⟨1, _⟩ => rfl⟩
  rw [rowBiasFloor_apply]
  show max (a (ix2 p q) + broadcastTo ⟨2, ![R, N]⟩ b hbc (ix2 p q)) (Ideal.ofBits .f32 w) = _
  rw [broadcastRow_apply]

end Cert.LibBodyBias

end
-- ==== Proof.LibTwoLayer.lean ====
/-
  A two-layer perceptron on the rows of an array, on the extended reals.

  `hidden h wa ba` is the first layer: the rows of `h` times `wa`, plus the one row `ba`, floored at zero.
  `outFloor` and `outPlain` are the second layer on top of it, with and without the floor at zero. An entry of any of
  them depends on its own row of `h` only, so a block of rows of the result is the result of that block of rows.

  Two spellings denote these functions. Inside a kernel body a block meets the weights as a matrix-unit product
  (operands narrowed to bf16, which changes nothing on the extended reals) accumulated into the zero splat, plus the
  one-row bias broadcast over the rows, with a scalar splat as the floor. On the host the product is a `dot_general`,
  the bias a vector broadcast twice, the floor a broadcast scalar.
-/
import proofs.«167467_j20538533610166_2_alg».proof.Proof.LibPlainDot
import proofs.«167467_j20538533610166_2_alg».proof.Proof.LibRowBias
import proofs.«167467_j20538533610166_2_alg».proof.Proof.LibRowBiasHost
import proofs.«167467_j20538533610166_2_alg».proof.Proof.LibBodyBias
import Idealize.ShloMosaic.Lib.Pipeline.Value
import Idealize.ShloMosaic.Lib.ValueIdx

noncomputable section

namespace Cert.Mlp

open Idealize.ShloMosaic Idealize.ShloMosaic.ValueIdx Cert.LibPlainDot Cert.LibRowBias Cert.LibBodyBias

/-- Zero, as the word of the float literal `0.0` reads. -/
abbrev zero : EReal := Ideal.ofBits .f32 0x00000000#32

/-- The entrywise sum of two arrays of one shape. -/
def rowsSum {s : Shape} (a b : s.Idx → EReal) : s.Idx → EReal := fun i => a i + b i

/-- The first layer: rows times weights, plus the bias row, floored at zero. -/
def hidden {M K N : ℕ} (h : (⟨2, ![M, K]⟩ : Shape).Idx → EReal) (wa : (⟨2, ![K, N]⟩ : Shape).Idx → EReal)
    (ba : (⟨2, ![1, N]⟩ : Shape).Idx → EReal) : (⟨2, ![M, N]⟩ : Shape).Idx → EReal :=
  rowBiasFloor zero (rowsTimes h wa) ba

/-- Both layers, the second floored at zero too. -/
def outFloor {M K N P : ℕ} (h : (⟨2, ![M, K]⟩ : Shape).Idx → EReal) (wa : (⟨2, ![K, N]⟩ : Shape).Idx → EReal)
    (ba : (⟨2, ![1, N]⟩ : Shape).Idx → EReal) (wb : (⟨2, ![N, P]⟩ : Shape).Idx → EReal)
    (bb : (⟨2, ![1, P]⟩ : Shape).Idx → EReal) : (⟨2, ![M, P]⟩ : Shape).Idx → EReal :=
  rowBiasFloor zero (rowsTimes (hidden h wa ba) wb) bb

/-- Both layers, the second without a floor. -/
def outPlain {M K N P : ℕ} (h : (⟨2, ![M, K]⟩ : Shape).Idx → EReal) (wa : (⟨2, ![K, N]⟩ : Shape).Idx → EReal)
    (ba : (⟨2, ![1, N]⟩ : Shape).Idx → EReal) (wb : (⟨2, ![N, P]⟩ : Shape).Idx → EReal)
    (bb : (⟨2, ![1, P]⟩ : Shape).Idx → EReal) : (⟨2, ![M, P]⟩ : Shape).Idx → EReal :=
  rowBias (rowsTimes (hidden h wa ba) wb) bb

/-! ## A block of rows -/

/-- Rows `o, …, o + R - 1` of the first layer are the first layer of those rows. -/
theorem hidden_rows {M R K N : ℕ} (o : ℕ) (h : (⟨2, ![M, K]⟩ : Shape).Idx → EReal) (hb : (⟨2, ![R, K]⟩ : Shape).Idx → EReal)
    (wa : (⟨2, ![K, N]⟩ : Shape).Idx → EReal) (ba : (⟨2, ![1, N]⟩ : Shape).Idx → EReal)
    (hh : ∀ (y : Fin R) (k : Fin K) (hlt : o + y.val < M), hb (ix2 y k) = h (ix2 (⟨o + y.val, hlt⟩ : Fin M) k))
    (y : (⟨2, ![R, N]⟩ : Shape).Idx) (i : (⟨2, ![M, N]⟩ : Shape).Idx) (h0 : (i 0).val = o + (y 0).val) (h1 : (i 1).val = (y 1).val) :
    hidden hb wa ba y = hidden h wa ba i :=
  rowBiasFloor_rows zero o (rowsTimes h wa) (rowsTimes hb wa) ba
    (fun p q hlt => rowsTimes_rows o h hb wa hh (ix2 p q) (ix2 (⟨o + p.val, hlt⟩ : Fin M) q) rfl rfl) y i h0 h1

/-- The same for both layers with the floor. -/
theorem outFloor_rows {M R K N P : ℕ} (o : ℕ) (h : (⟨2, ![M, K]⟩ : Shape).Idx → EReal) (hb : (⟨2, ![R, K]⟩ : Shape).Idx → EReal)
    (wa : (⟨2, ![K, N]⟩ : Shape).Idx → EReal) (ba : (⟨2, ![1, N]⟩ : Shape).Idx → EReal)
    (wb : (⟨2, ![N, P]⟩ : Shape).Idx → EReal) (bb : (⟨2, ![1, P]⟩ : Shape).Idx → EReal)
    (hh : ∀ (y : Fin R) (k : Fin K) (hlt : o + y.val < M), hb (ix2 y k) = h (ix2 (⟨o + y.val, hlt⟩ : Fin M) k))
    (y : (⟨2, ![R, P]⟩ : Shape).Idx) (i : (⟨2, ![M, P]⟩ : Shape).Idx) (h0 : (i 0).val = o + (y 0).val) (h1 : (i 1).val = (y 1).val) :
    outFloor hb wa ba wb bb y = outFloor h wa ba wb bb i :=
  rowBiasFloor_rows zero o (rowsTimes (hidden h wa ba) wb) (rowsTimes (hidden hb wa ba) wb) bb
    (fun p q hlt => rowsTimes_rows o (hidden h wa ba) (hidden hb wa ba) wb
      (fun y' k hlt' => hidden_rows o h hb wa ba hh (ix2 y' k) (ix2 (⟨o + y'.val, hlt'⟩ : Fin M) k) rfl rfl)
      (ix2 p q) (ix2 (⟨o + p.val, hlt⟩ : Fin M) q) rfl rfl) y i h0 h1

/-- The same for both layers without the second floor. -/
theorem outPlain_rows {M R K N P : ℕ} (o : ℕ) (h : (⟨2, ![M, K]⟩ : Shape).Idx → EReal) (hb : (⟨2, ![R, K]⟩ : Shape).Idx → EReal)
    (wa : (⟨2, ![K, N]⟩ : Shape).Idx → EReal) (ba : (⟨2, ![1, N]⟩ : Shape).Idx → EReal)
    (wb : (⟨2, ![N, P]⟩ : Shape).Idx → EReal) (bb : (⟨2, ![1, P]⟩ : Shape).Idx → EReal)
    (hh : ∀ (y : Fin R) (k : Fin K) (hlt : o + y.val < M), hb (ix2 y k) = h (ix2 (⟨o + y.val, hlt⟩ : Fin M) k))
    (y : (⟨2, ![R, P]⟩ : Shape).Idx) (i : (⟨2, ![M, P]⟩ : Shape).Idx) (h0 : (i 0).val = o + (y 0).val) (h1 : (i 1).val = (y 1).val) :
    outPlain hb wa ba wb bb y = outPlain h wa ba wb bb i :=
  rowBias_rows o (rowsTimes (hidden h wa ba) wb) (rowsTimes (hidden hb wa ba) wb) bb
    (fun p q hlt => rowsTimes_rows o (hidden h wa ba) (hidden hb wa ba) wb
      (fun y' k hlt' => hidden_rows o h hb wa ba hh (ix2 y' k) (ix2 (⟨o + y'.val, hlt'⟩ : Fin M) k) rfl rfl)
      (ix2 p q) (ix2 (⟨o + p.val, hlt⟩ : Fin M) q) rfl rfl) y i h0 h1

/-! ## The kernel bodies' spelling of one layer -/

/-- A block times the weights on the matrix unit (both narrowed to bf16: the identity here), plus the bias row broadcast
    over the rows, floored at a zero splat: one floored layer. -/
theorem body_layer_floor {R K N : ℕ} (a : FVec Ideal ⟨2, ![R, K]⟩ .f32) (w : FVec Ideal ⟨2, ![K, N]⟩ .f32)
    (b : FVec Ideal ⟨2, ![1, N]⟩ .f32) (d : DotDims ⟨2, ![R, K]⟩ ⟨2, ![K, N]⟩ ⟨2, ![R, N]⟩) (hd : d = DotDims.plain R K N)
    (hlt : FTy.bf16.bits < FTy.f32.bits) (hbc : (⟨2, ![1, N]⟩ : Shape).Broadcasts ⟨2, ![R, N]⟩) :
    maximumf (addf (matmul d none (truncf .bf16 a hlt) (truncf .bf16 w hlt) (constant ⟨2, ![R, N]⟩ .f32 0x00000000#32))
        (broadcastTo ⟨2, ![R, N]⟩ b hbc)) (broadcast ⟨2, ![R, N]⟩ (Scalar.ofBits (F := Ideal) .f32 0x00000000#32))
      = rowBiasFloor zero (rowsTimes a w) b := by
  subst hd
  funext i
  obtain ⟨p, q, rfl⟩ : ∃ (p : Fin R) (q : Fin N), i = ix2 p q :=
    ⟨⟨(i 0).val, idx2_lt0 i⟩, ⟨(i 1).val, idx2_lt1 i⟩, by funext d; match d with | ⟨0, _⟩ => rfl | ⟨1, _⟩ => rfl⟩
  rw [rowBiasFloor_apply]
  show max (FloatOps.matmul (DotDims.plain R K N) none (truncf .bf16 a hlt) (truncf .bf16 w hlt)
      (constant ⟨2, ![R, N]⟩ .f32 0x00000000#32) (ix2 p q) + broadcastTo ⟨2, ![R, N]⟩ b hbc (ix2 p q)) zero = _
  rw [broadcastRow_apply, matmul_zero_plain]
  rfl

/-- The same without the floor. -/
theorem body_layer_plain {R K N : ℕ} (a : FVec Ideal ⟨2, ![R, K]⟩ .f32) (w : FVec Ideal ⟨2, ![K, N]⟩ .f32)
    (b : FVec Ideal ⟨2, ![1, N]⟩ .f32) (d : DotDims ⟨2, ![R, K]⟩ ⟨2, ![K, N]⟩ ⟨2, ![R, N]⟩) (hd : d = DotDims.plain R K N)
    (hlt : FTy.bf16.bits < FTy.f32.bits) (hbc : (⟨2, ![1, N]⟩ : Shape).Broadcasts ⟨2, ![R, N]⟩) :
    addf (matmul d none (truncf .bf16 a hlt) (truncf .bf16 w hlt) (constant ⟨2, ![R, N]⟩ .f32 0x00000000#32))
        (broadcastTo ⟨2, ![R, N]⟩ b hbc)
      = rowBias (rowsTimes a w) b := by
  subst hd
  funext i
  obtain ⟨p, q, rfl⟩ : ∃ (p : Fin R) (q : Fin N), i = ix2 p q :=
    ⟨⟨(i 0).val, idx2_lt0 i⟩, ⟨(i 1).val, idx2_lt1 i⟩, by funext d; match d with | ⟨0, _⟩ => rfl | ⟨1, _⟩ => rfl⟩
  rw [rowBias_apply]
  show FloatOps.matmul (DotDims.plain R K N) none (truncf .bf16 a hlt) (truncf .bf16 w hlt)
      (constant ⟨2, ![R, N]⟩ .f32 0x00000000#32) (ix2 p q) + broadcastTo ⟨2, ![R, N]⟩ b hbc (ix2 p q) = _
  rw [broadcastRow_apply, matmul_zero_plain]
  rfl

/-! ## The host's spelling of one layer -/

/-- A `dot_general`, plus a vector broadcast to a row and then over the rows, floored at a broadcast zero: one floored
    layer, its bias row the vector reshaped to one row. -/
theorem host_layer_floor {M K N : ℕ} (a : FVec Ideal ⟨2, ![M, K]⟩ .f32) (w : FVec Ideal ⟨2, ![K, N]⟩ .f32)
    (x : FVec Ideal ⟨1, ![N]⟩ .f32) (d : DotDims ⟨2, ![M, K]⟩ ⟨2, ![K, N]⟩ ⟨2, ![M, N]⟩) (hd : d = DotDims.plain M K N)
    (h0 : (⟨0, ![]⟩ : Shape).BroadcastsInDim ⟨2, ![M, N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    maximumf (addf (Host.dotGeneral d none a w) (broadcastInDim ⟨2, ![M, N]⟩ ![0, 1] h2 (broadcastInDim ⟨2, ![1, N]⟩ ![1] h1 x)))
        (broadcastInDim ⟨2, ![M, N]⟩ ![] h0 (constant (F := Ideal) ⟨0, ![]⟩ .f32 0x00000000#32))
      = rowBiasFloor zero (rowsTimes a w) (shapeCast ⟨2, ![1, N]⟩ x hc) := by
  subst hd
  rw [max_addf_bcastRow 0x00000000#32 _ x h0 h1 h2 hc]
  show rowBiasFloor zero (FloatOps.dotGeneral (DotDims.plain M K N) none .single a w) _ = _
  rw [dotGeneral_plain]

/-- The same without the floor. -/
theorem host_layer_plain {M K N : ℕ} (a : FVec Ideal ⟨2, ![M, K]⟩ .f32) (w : FVec Ideal ⟨2, ![K, N]⟩ .f32)
    (x : FVec Ideal ⟨1, ![N]⟩ .f32) (d : DotDims ⟨2, ![M, K]⟩ ⟨2, ![K, N]⟩ ⟨2, ![M, N]⟩) (hd : d = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (Host.dotGeneral d none a w) (broadcastInDim ⟨2, ![M, N]⟩ ![0, 1] h2 (broadcastInDim ⟨2, ![1, N]⟩ ![1] h1 x))
      = rowBias (rowsTimes a w) (shapeCast ⟨2, ![1, N]⟩ x hc) := by
  subst hd
  rw [addf_bcastRow _ x h1 h2 hc]
  show rowBias (FloatOps.dotGeneral (DotDims.plain M K N) none .single a w) _ = _
  rw [dotGeneral_plain]

end Cert.Mlp

end
-- ==== Proof.GinNet.lean ====
/-
  Two graph-isomorphism layers on the rows of an array, on the extended reals.

  A layer first adds to every node's row the sum of its neighbours' rows, then feeds the rows to a small perceptron.
  The neighbour sum is taken here as a GIVEN array `a` of the same shape as the node array: the layers below are
  functions of the pair (rows, neighbour sums), and what the neighbour sum is plays no part in them.

  `layerOne x a w1 b1 w2 b2` is `max (max ((x + a)·w1 + b1, 0)·w2 + b2, 0)`; `layerTwo h a w3 b3` is
  `max ((h + a)·w3 + b3, 0)`. An entry of either depends on its own row of `x` (or `h`) and of `a` only, so a block of
  rows of the result is the result of that block of rows of both (`layerOne_rows`, `layerTwo_rows`).
-/
import proofs.«167467_j20538533610166_2_alg».proof.Proof.LibTwoLayer

noncomputable section

namespace Cert.Gin

open Idealize.ShloMosaic Idealize.ShloMosaic.ValueIdx Cert.Mlp

/-- The first layer: rows plus neighbour sums through a two-layer perceptron, both layers floored at zero. -/
def layerOne {M K N P : ℕ} (x a : (⟨2, ![M, K]⟩ : Shape).Idx → EReal) (w1 : (⟨2, ![K, N]⟩ : Shape).Idx → EReal)
    (b1 : (⟨2, ![1, N]⟩ : Shape).Idx → EReal) (w2 : (⟨2, ![N, P]⟩ : Shape).Idx → EReal)
    (b2 : (⟨2, ![1, P]⟩ : Shape).Idx → EReal) : (⟨2, ![M, P]⟩ : Shape).Idx → EReal :=
  outFloor (rowsSum x a) w1 b1 w2 b2

/-- The second layer: rows plus neighbour sums through one floored linear layer. -/
def layerTwo {M K N : ℕ} (h a : (⟨2, ![M, K]⟩ : Shape).Idx → EReal) (w3 : (⟨2, ![K, N]⟩ : Shape).Idx → EReal)
    (b3 : (⟨2, ![1, N]⟩ : Shape).Idx → EReal) : (⟨2, ![M, N]⟩ : Shape).Idx → EReal :=
  hidden (rowsSum h a) w3 b3

/-- Rows `o, …, o + R - 1` of the sum of two arrays are the sum of those rows of each. -/
theorem rowsSum_rows {M R K : ℕ} (o : ℕ) (x a : (⟨2, ![M, K]⟩ : Shape).Idx → EReal) (xb ab : (⟨2, ![R, K]⟩ : Shape).Idx → EReal)
    (hx : ∀ (y : Fin R) (k : Fin K) (hlt : o + y.val < M), xb (ix2 y k) = x (ix2 (⟨o + y.val, hlt⟩ : Fin M) k))
    (ha : ∀ (y : Fin R) (k : Fin K) (hlt : o + y.val < M), ab (ix2 y k) = a (ix2 (⟨o + y.val, hlt⟩ : Fin M) k))
    (y : Fin R) (k : Fin K) (hlt : o + y.val < M) :
    rowsSum xb ab (ix2 y k) = rowsSum x a (ix2 (⟨o + y.val, hlt⟩ : Fin M) k) := by
  unfold rowsSum
  rw [hx y k hlt, ha y k hlt]

/-- Rows `o, …, o + R - 1` of the first layer are the first layer of those rows of the nodes and of the neighbour sums. -/
theorem layerOne_rows {M R K N P : ℕ} (o : ℕ) (x a : (⟨2, ![M, K]⟩ : Shape).Idx → EReal) (xb ab : (⟨2, ![R, K]⟩ : Shape).Idx → EReal)
    (w1 : (⟨2, ![K, N]⟩ : Shape).Idx → EReal) (b1 : (⟨2, ![1, N]⟩ : Shape).Idx → EReal)
    (w2 : (⟨2, ![N, P]⟩ : Shape).Idx → EReal) (b2 : (⟨2, ![1, P]⟩ : Shape).Idx → EReal)
    (hx : ∀ (y : Fin R) (k : Fin K) (hlt : o + y.val < M), xb (ix2 y k) = x (ix2 (⟨o + y.val, hlt⟩ : Fin M) k))
    (ha : ∀ (y : Fin R) (k : Fin K) (hlt : o + y.val < M), ab (ix2 y k) = a (ix2 (⟨o + y.val, hlt⟩ : Fin M) k))
    (y : (⟨2, ![R, P]⟩ : Shape).Idx) (i : (⟨2, ![M, P]⟩ : Shape).Idx) (h0 : (i 0).val = o + (y 0).val) (h1 : (i 1).val = (y 1).val) :
    layerOne xb ab w1 b1 w2 b2 y = layerOne x a w1 b1 w2 b2 i :=
  outFloor_rows o (rowsSum x a) (rowsSum xb ab) w1 b1 w2 b2 (rowsSum_rows o x a xb ab hx ha) y i h0 h1

/-- The same for the second layer. -/
theorem layerTwo_rows {M R K N : ℕ} (o : ℕ) (h a : (⟨2, ![M, K]⟩ : Shape).Idx → EReal) (hb ab : (⟨2, ![R, K]⟩ : Shape).Idx → EReal)
    (w3 : (⟨2, ![K, N]⟩ : Shape).Idx → EReal) (b3 : (⟨2, ![1, N]⟩ : Shape).Idx → EReal)
    (hh : ∀ (y : Fin R) (k : Fin K) (hlt : o + y.val < M), hb (ix2 y k) = h (ix2 (⟨o + y.val, hlt⟩ : Fin M) k))
    (ha : ∀ (y : Fin R) (k : Fin K) (hlt : o + y.val < M), ab (ix2 y k) = a (ix2 (⟨o + y.val, hlt⟩ : Fin M) k))
    (y : (⟨2, ![R, N]⟩ : Shape).Idx) (i : (⟨2, ![M, N]⟩ : Shape).Idx) (h0 : (i 0).val = o + (y 0).val) (h1 : (i 1).val = (y 1).val) :
    layerTwo hb ab w3 b3 y = layerTwo h a w3 b3 i :=
  hidden_rows o (rowsSum h a) (rowsSum hb ab) w3 b3 (rowsSum_rows o h a hb ab hh ha) y i h0 h1

end Cert.Gin

end
-- ==== Proof.Neighbours.lean ====
/-
  The neighbour sum of a graph layer, as both programs spell it on the host.

  The edge list is a `[2, E]` array of node numbers: row 0 holds each edge's source, row 1 its target. A negative
  source counts from the end (the node count is added to it). The neighbour sum of a node array gathers the source
  node's row for every edge and adds it into the target node's row of an all-zero array. Both programs print this
  with the same operations in the same order, so here it is ONE function of the edge list and the node array
  (`nbrWide` for 64-wide rows, `nbrNarrow` for 32-wide rows); what the gather and the accumulating scatter do
  entry by entry is never needed.
-/
import proofs.«167467_j20538533610166_2_alg».proof.Proof.Gen.ReferenceIdeal
import proofs.«167467_j20538533610166_2_alg».proof.Proof.Gen.KernelIdeal
import Idealize.ShloMosaic.PureOps.Ideal

noncomputable section

namespace Cert.Gin

open Idealize.ShloMosaic

/-- The edge list: a `[2, 1600000]` array of 32-bit node numbers. -/
abbrev EdgeList : Type := (⟨Cert.ReferenceIdeal.S2x1600000, .i32⟩ : BufTy).Contents (Elt Ideal)

section Spelling
open Cert.ReferenceIdeal Cert.ReferenceIdeal.Facts₀

/-- The source node of every edge as a column, a negative number counted from the end. -/
def srcCol (ei : EdgeList) : (⟨S1600000x1, .i32⟩ : BufTy).Contents (Elt Ideal) :=
  broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))

/-- The target node of every edge as a column. -/
def dstCol (ei : EdgeList) : (⟨S1600000x1, .i32⟩ : BufTy).Contents (Elt Ideal) :=
  broadcastInDim S1600000x1 ![0] bcast_S1600000_S1600000x1_0 (shapeCast _ (extractStridedSlice S1x1600000 ![1, 0] ei slices_S2x1600000_S1x1600000_1_0) shapeCasts_S1x1600000_S1600000)

/-- The neighbour sums of a 64-wide node array: every edge's source row added into its target row of zeros. -/
def nbrWide (ei : EdgeList) (x : FVec Ideal S100000x64 .f32) : FVec Ideal S100000x64 .f32 :=
  Host.scatterAdd (F := Ideal) scatter_S100000x64_S1600000x1_S1600000x64_1_0_0_1 (broadcastInDim S100000x64 ![] bcast_S_S100000x64 (constant (F := Ideal) S_ .f32 0x00000000#32)) (dstCol ei) (Host.gather gather_S100000x64_S1600000x1_S1600000x64_1_0_n_n_0_1_164 x (srcCol ei))

/-- The neighbour sums of a 32-wide node array. -/
def nbrNarrow (ei : EdgeList) (h : FVec Ideal S100000x32 .f32) : FVec Ideal S100000x32 .f32 :=
  Host.scatterAdd (F := Ideal) scatter_S100000x32_S1600000x1_S1600000x32_1_0_0_1 (broadcastInDim S100000x32 ![] bcast_S_S100000x32 (constant (F := Ideal) S_ .f32 0x00000000#32)) (dstCol ei) (Host.gather gather_S100000x32_S1600000x1_S1600000x32_1_0_n_n_0_1_132 h (srcCol ei))

end Spelling

section KernelSpelling
open Cert.KernelIdeal Cert.KernelIdeal.Facts₀

/-- The kernel program's source column is the same column. -/
theorem kernel_srcCol (ei : EdgeList) :
    (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))) = srcCol ei := rfl

/-- The kernel program's target column is the same column. -/
theorem kernel_dstCol (ei : EdgeList) :
    (broadcastInDim S1600000x1 ![0] bcast_S1600000_S1600000x1_0 (shapeCast _ (extractStridedSlice S1x1600000 ![1, 0] ei slices_S2x1600000_S1x1600000_1_0) shapeCasts_S1x1600000_S1600000)) = dstCol ei := rfl

/-- The kernel program's 64-wide neighbour sum is the same function. -/
theorem kernel_nbrWide (ei : EdgeList) (x : FVec Ideal S100000x64 .f32) :
    Host.scatterAdd (F := Ideal) scatter_S100000x64_S1600000x1_S1600000x64_1_0_0_1 (broadcastInDim S100000x64 ![] bcast_S_S100000x64 (constant (F := Ideal) S_ .f32 0x00000000#32)) (dstCol ei) (Host.gather gather_S100000x64_S1600000x1_S1600000x64_1_0_n_n_0_1_164 x (srcCol ei))
      = nbrWide ei x := rfl

/-- The kernel program's 32-wide neighbour sum is the same function. -/
theorem kernel_nbrNarrow (ei : EdgeList) (h : FVec Ideal S100000x32 .f32) :
    Host.scatterAdd (F := Ideal) scatter_S100000x32_S1600000x1_S1600000x32_1_0_0_1 (broadcastInDim S100000x32 ![] bcast_S_S100000x32 (constant (F := Ideal) S_ .f32 0x00000000#32)) (dstCol ei) (Host.gather gather_S100000x32_S1600000x1_S1600000x32_1_0_n_n_0_1_132 h (srcCol ei))
      = nbrNarrow ei h := rfl

end KernelSpelling

end Cert.Gin

end
-- ==== Proof.GinValue.lean ====
/-
  The whole network as one function of the argument arrays, on the extended reals.

  With `nbr` the neighbour sum over the edge list: the hidden node array is the first layer of the nodes and their
  neighbour sums, and the result is the second layer of the hidden nodes and THEIR neighbour sums. The bias vectors
  enter as one-row arrays.
-/
import proofs.«167467_j20538533610166_2_alg».proof.Proof.GinNet
import proofs.«167467_j20538533610166_2_alg».proof.Proof.Neighbours

noncomputable section

namespace Cert.Gin

open Idealize.ShloMosaic Cert.ReferenceIdeal

/-- The hidden node array: the first layer of the nodes and their neighbour sums. -/
def hiddenNodes (ei : EdgeList) (x : FVec Ideal S100000x64 .f32) (w1 : FVec Ideal S64x32 .f32) (b1 : FVec Ideal S32 .f32)
    (w2 : FVec Ideal S32x32 .f32) (b2 : FVec Ideal S32 .f32) : FVec Ideal S100000x32 .f32 :=
  layerOne (M := 100000) (K := 64) (N := 32) (P := 32) x (nbrWide ei x) w1
    (shapeCast S1x32 b1 Cert.KernelIdeal.Facts₀.shapeCasts_S32_S1x32) w2
    (shapeCast S1x32 b2 Cert.KernelIdeal.Facts₀.shapeCasts_S32_S1x32)

/-- The result: the second layer of the hidden nodes and their neighbour sums. -/
def gin (ei : EdgeList) (x : FVec Ideal S100000x64 .f32) (w1 : FVec Ideal S64x32 .f32) (b1 : FVec Ideal S32 .f32)
    (w2 : FVec Ideal S32x32 .f32) (b2 : FVec Ideal S32 .f32) (w3 : FVec Ideal S32x64 .f32) (b3 : FVec Ideal S64 .f32) :
    FVec Ideal S100000x64 .f32 :=
  layerTwo (M := 100000) (K := 32) (N := 64) (hiddenNodes ei x w1 b1 w2 b2) (nbrNarrow ei (hiddenNodes ei x w1 b1 w2 b2)) w3
    (shapeCast S1x64 b3 Cert.KernelIdeal.Facts₀.shapeCasts_S64_S1x64)

end Cert.Gin

end
-- ==== Proof.HostStretches.lean ====
/-
  What the host operations around the two kernels leave in the buffers the kernels read.

  Before the first kernel the host computes the neighbour sums of the node array and reshapes the first two bias
  vectors to one-row arrays; the argument arrays are untouched. Between the kernels it computes the neighbour sums of
  the hidden node array the first kernel left, and reshapes the third bias vector; it reads the edge list through the
  two rows it sliced out before the first kernel, which the first kernel does not touch.
-/
import proofs.«167467_j20538533610166_2_alg».proof.Proof.Gen.KernelIdeal.Frame
import proofs.«167467_j20538533610166_2_alg».proof.Proof.GinValue
import Idealize.ShloMosaic.Lib.StableHlo.Run

set_option maxRecDepth 16384

noncomputable section

namespace Cert.Gin

open Idealize.ShloMosaic Idealize.ShloMosaic.TcCoe Idealize.ShloMosaic.StableHlo
open Idealize.SL Idealize.SL.Sem
open Cert.KernelIdeal Cert.KernelIdeal.Gen

variable (m : (ℓ : Loc nD τ sig) → Buf (Elt Ideal) ℓ) (ρ : Dev nD → PrngReg)

/-! ## Before the first kernel -/

theorem entryOne_nodes (c : Dev nD) : V1 m ρ c main_arg0 = (m ((c : Thread nD τ).loc main_arg0)) := by
  show StableHlo.after hostOps0 (W0 m ρ c) (Proc.devRef .tc main_arg0) = _
  after_results

theorem entryOne_w1 (c : Dev nD) : V1 m ρ c main_arg2 = (m ((c : Thread nD τ).loc main_arg2)) := by
  show StableHlo.after hostOps0 (W0 m ρ c) (Proc.devRef .tc main_arg2) = _
  after_results

theorem entryOne_w2 (c : Dev nD) : V1 m ρ c main_arg4 = (m ((c : Thread nD τ).loc main_arg4)) := by
  show StableHlo.after hostOps0 (W0 m ρ c) (Proc.devRef .tc main_arg4) = _
  after_results

theorem entryOne_b1 (c : Dev nD) : V1 m ρ c main_v14 = shapeCast S1x32 (m ((c : Thread nD τ).loc main_arg3)) Cert.KernelIdeal.Facts₀.shapeCasts_S32_S1x32 := by
  show StableHlo.after hostOps0 (W0 m ρ c) (Proc.devRef .tc main_v14) = _
  after_results
  rfl

theorem entryOne_b2 (c : Dev nD) : V1 m ρ c main_v15 = shapeCast S1x32 (m ((c : Thread nD τ).loc main_arg5)) Cert.KernelIdeal.Facts₀.shapeCasts_S32_S1x32 := by
  show StableHlo.after hostOps0 (W0 m ρ c) (Proc.devRef .tc main_v15) = _
  after_results
  rfl

theorem entryOne_nbr (c : Dev nD) : V1 m ρ c main_v13 = nbrWide (m ((c : Thread nD τ).loc main_arg1)) (m ((c : Thread nD τ).loc main_arg0)) := by
  show StableHlo.after hostOps0 (W0 m ρ c) (Proc.devRef .tc main_v13) = _
  after_results
  rfl

/-! ## Between the kernels -/

/-- The first kernel leaves the sliced source row of the edge list as the host made it. -/
theorem exitOne_src (c : Dev nD) : W2 m ρ c (Proc.devRef .tc main_v1)
    = shapeCast _ (extractStridedSlice S1x1600000 ![0, 0] (m ((c : Thread nD τ).loc main_arg1)) Cert.KernelIdeal.Facts₀.slices_S2x1600000_S1x1600000_0_0) Cert.KernelIdeal.Facts₀.shapeCasts_S1x1600000_S1600000 := by
  refine (W2_of_ne m ρ c main_v1 (by decide)).trans ?_
  show StableHlo.after hostOps0 (W0 m ρ c) (Proc.devRef .tc main_v1) = _
  after_results
  rfl

/-- The first kernel leaves the sliced target row of the edge list as the host made it. -/
theorem exitOne_dst (c : Dev nD) : W2 m ρ c (Proc.devRef .tc main_v3)
    = shapeCast _ (extractStridedSlice S1x1600000 ![1, 0] (m ((c : Thread nD τ).loc main_arg1)) Cert.KernelIdeal.Facts₀.slices_S2x1600000_S1x1600000_1_0) Cert.KernelIdeal.Facts₀.shapeCasts_S1x1600000_S1600000 := by
  refine (W2_of_ne m ρ c main_v3 (by decide)).trans ?_
  show StableHlo.after hostOps0 (W0 m ρ c) (Proc.devRef .tc main_v3) = _
  after_results
  rfl

/-- The first kernel leaves the third weights as launched. -/
theorem exitOne_w3 (c : Dev nD) : W2 m ρ c (Proc.devRef .tc main_arg6) = (m ((c : Thread nD τ).loc main_arg6)) := by
  refine (W2_of_ne m ρ c main_arg6 (by decide)).trans ?_
  show StableHlo.after hostOps0 (W0 m ρ c) (Proc.devRef .tc main_arg6) = _
  after_results

/-- The first kernel leaves the third bias vector as launched. -/
theorem exitOne_b3 (c : Dev nD) : W2 m ρ c (Proc.devRef .tc main_arg7) = (m ((c : Thread nD τ).loc main_arg7)) := by
  refine (W2_of_ne m ρ c main_arg7 (by decide)).trans ?_
  show StableHlo.after hostOps0 (W0 m ρ c) (Proc.devRef .tc main_arg7) = _
  after_results

/-- The second kernel finds the hidden node array as the first kernel left it. -/
theorem entryTwo_nodes (c : Dev nD) : V3 m ρ c main_v16 = W2 m ρ c (Proc.devRef .tc main_v16) := by
  show StableHlo.after hostOps1 (W2 m ρ c) (Proc.devRef .tc main_v16) = _
  after_results

theorem entryTwo_w3 (c : Dev nD) : V3 m ρ c main_arg6 = (m ((c : Thread nD τ).loc main_arg6)) := by
  refine Eq.trans ?_ (exitOne_w3 m ρ c)
  show StableHlo.after hostOps1 (W2 m ρ c) (Proc.devRef .tc main_arg6) = _
  after_results

theorem entryTwo_b3 (c : Dev nD) : V3 m ρ c main_v27 = shapeCast S1x64 (m ((c : Thread nD τ).loc main_arg7)) Cert.KernelIdeal.Facts₀.shapeCasts_S64_S1x64 := by
  rw [← exitOne_b3 m ρ c]
  show StableHlo.after hostOps1 (W2 m ρ c) (Proc.devRef .tc main_v27) = _
  after_results
  rfl

theorem entryTwo_nbr (c : Dev nD) : V3 m ρ c main_v26 = nbrNarrow (m ((c : Thread nD τ).loc main_arg1)) (W2 m ρ c (Proc.devRef .tc main_v16)) := by
  show StableHlo.after hostOps1 (W2 m ρ c) (Proc.devRef .tc main_v26) = _
  after_results
  rw [exitOne_src m ρ c, exitOne_dst m ρ c]
  rfl

end Cert.Gin

end
-- ==== Proof.Body.lean ====
/-
  What the two kernel bodies compute from their blocks, on the extended reals.

  The first body adds a block of node rows and the matching block of neighbour sums, multiplies by the first weights on
  the matrix unit, adds the first bias row and floors at zero, then does the same with the second weights and bias: it
  is the first layer of that block of rows. The second body does one such step: the second layer of its block of rows.
  Narrowing an operand to bf16 changes nothing on the extended reals, and a cast of a shape to itself is the identity.
-/
import proofs.«167467_j20538533610166_2_alg».proof.Proof.Gen.KernelIdeal.Skeleton
import proofs.«167467_j20538533610166_2_alg».proof.Proof.GinNet

noncomputable section

namespace Cert.Gin

open Idealize.ShloMosaic Idealize.ShloMosaic.ValueIdx Cert.Mlp Cert.KernelIdeal Cert.KernelIdeal.Gen

/-- The first body's stored value is the first layer of its blocks. -/
theorem bodyOne (v0 v1 : FVec Ideal S5000x64 .f32) (v5 : FVec Ideal S64x32 .f32) (v8 : FVec Ideal S1x32 .f32)
    (v15 : FVec Ideal S32x32 .f32) (v18 : FVec Ideal S1x32 .f32) :
    k0_pay1 (F := Ideal) v0 v1 v5 v8 v15 v18 = layerOne (M := 5000) (K := 64) (N := 32) (P := 32) v0 v1 v5 v8 v15 v18 := by
  unfold k0_pay1
  dsimp only
  rw [body_layer_floor (R := 5000) (K := 64) (N := 32) (addf v0 (shapeCast S5000x64 v1 shapeCasts_S5000x64_S5000x64)) v5
    (shapeCast S1x32 v8 shapeCasts_S1x32_S1x32) dot_S5000x64_S64x32_S5000x32_1_0_0_1_n_n rfl bitsLt_bf16_f32 broadcasts_S1x32_S5000x32]
  rw [body_layer_floor (R := 5000) (K := 32) (N := 32) _ v15
    (shapeCast S1x32 v18 shapeCasts_S1x32_S1x32) dot_S5000x32_S32x32_S5000x32_1_0_0_1_n_n rfl bitsLt_bf16_f32 broadcasts_S1x32_S5000x32]
  rw [shapeCast_self, shapeCast_self, shapeCast_self]
  rfl

/-- The second body's stored value is the second layer of its blocks. -/
theorem bodyTwo (v0 v2 : FVec Ideal S5000x32 .f32) (v6 : FVec Ideal S32x64 .f32) (v9 : FVec Ideal S1x64 .f32) :
    k1_pay1 (F := Ideal) v0 v2 v6 v9 = layerTwo (M := 5000) (K := 32) (N := 64) v0 v2 v6 v9 := by
  unfold k1_pay1
  dsimp only
  rw [body_layer_floor (R := 5000) (K := 32) (N := 64)
    (addf (shapeCast S5000x32 v0 shapeCasts_S5000x32_S5000x32) (shapeCast S5000x32 v2 shapeCasts_S5000x32_S5000x32)) v6
    (shapeCast S1x64 v9 shapeCasts_S1x64_S1x64) dot_S5000x32_S32x64_S5000x64_1_0_0_1_n_n rfl bitsLt_bf16_f32 broadcasts_S1x64_S5000x64]
  rw [shapeCast_self, shapeCast_self, shapeCast_self]
  rfl

end Cert.Gin

end
-- ==== Proof.Blocks.lean ====
/-
  From the blocks each grid point writes back to the whole arrays the two kernels leave.

  Both kernels walk the node rows in twenty blocks of 5000 rows. At point `t` the row-blocked windows hold rows
  `5000 t, …, 5000 t + 4999` of their arrays, the weights and bias windows hold their whole arrays, and the body writes
  the layer of that block of rows. Since an entry of a layer depends on its own row only, the block written back at
  point `t` is rows `5000 t, …` of the layer of the WHOLE arrays; the twenty blocks cover every row, so the output array
  ends holding the layer of the whole arrays as the region found them.
-/
import proofs.«167467_j20538533610166_2_alg».proof.Proof.Gen.KernelIdeal.Frame
import proofs.«167467_j20538533610166_2_alg».proof.Proof.Body
import Idealize.ShloMosaic.Lib.Pipeline.Value

set_option maxRecDepth 16384

noncomputable section

namespace Cert.Gin

open Idealize.ShloMosaic Idealize.ShloMosaic.TcCoe Idealize.ShloMosaic.ValueIdx
open Idealize.SL Idealize.SL.Sem
open Cert.KernelIdeal Cert.KernelIdeal.Gen
open Idealize.ShloMosaic.Pipeline (Dat Cfg Window)

theorem hz : (![0, 0] : Fin 2 → Nat) = fun _ => 0 := funext fun a => by fin_cases a <;> rfl

variable (V : (c : Dev nD) → (b : Ref sig .tc) → Buf (Elt Ideal) ((c : Thread nD τ).loc b))

/-! ## The first kernel -/

/-- The printed index maps of the first kernel over its grid: the row-blocked windows sit at block row `t`, the others
    at block (0, 0). -/
theorem idxOne : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The node rows' block at point `t` is rows `5000 t, …` of the node array. -/
theorem nodeRowsOne (c : Dev nD) (t : Fin cfg0.N) (y : Fin 5000) (k : Fin 64) (hlt : 5000 * t.val + y.val < 100000) :
    iblk0 V c 0 t (ix2 y k) = V c main_arg0 (ix2 (⟨5000 * t.val + y.val, hlt⟩ : Fin 100000) k) := by
  obtain ⟨e0, e1, -⟩ := idxOne t
  show V c main_arg0 (((cfg0.win 0).blk t).view.emb (ix2 y k)) = _
  refine congrArg _ (funext fun a => Fin.ext ?_)
  match a with
  | ⟨0, _⟩ => show win0_0.index t (0 : Fin 2) * 5000 + 1 * y.val = 5000 * t.val + y.val; rw [e0]; omega
  | ⟨1, _⟩ => show win0_0.index t (1 : Fin 2) * 64 + 1 * k.val = k.val; rw [e1]; omega

/-- The neighbour sums' block at point `t` is rows `5000 t, …` of the neighbour sums. -/
theorem nbrRowsOne (c : Dev nD) (t : Fin cfg0.N) (y : Fin 5000) (k : Fin 64) (hlt : 5000 * t.val + y.val < 100000) :
    iblk0 V c 1 t (ix2 y k) = V c main_v13 (ix2 (⟨5000 * t.val + y.val, hlt⟩ : Fin 100000) k) := by
  obtain ⟨-, -, e0, e1, -⟩ := idxOne t
  show V c main_v13 (((cfg0.win 1).blk t).view.emb (ix2 y k)) = _
  refine congrArg _ (funext fun a => Fin.ext ?_)
  match a with
  | ⟨0, _⟩ => show win0_1.index t (0 : Fin 2) * 5000 + 1 * y.val = 5000 * t.val + y.val; rw [e0]; omega
  | ⟨1, _⟩ => show win0_1.index t (1 : Fin 2) * 64 + 1 * k.val = k.val; rw [e1]; omega

/-- The first weights' window holds the whole array at every point. -/
theorem wOneA (c : Dev nD) (t : Fin cfg0.N) :
    (iblk0 V c 2 t : (⟨2, ![64, 32]⟩ : Shape).Idx → EReal) = V c main_arg2 := by
  obtain ⟨-, -, -, -, e0, e1, -⟩ := idxOne t
  funext j
  show V c main_arg2 (((cfg0.win 2).blk t).view.emb j) = V c main_arg2 j
  refine congrArg _ (funext fun a => Fin.ext ?_)
  match a with
  | ⟨0, _⟩ => show win0_2.index t (0 : Fin 2) * 64 + 1 * (j 0).val = (j 0).val; rw [e0]; omega
  | ⟨1, _⟩ => show win0_2.index t (1 : Fin 2) * 32 + 1 * (j 1).val = (j 1).val; rw [e1]; omega

/-- The first bias row's window holds the whole row at every point. -/
theorem bOneA (c : Dev nD) (t : Fin cfg0.N) :
    (iblk0 V c 3 t : (⟨2, ![1, 32]⟩ : Shape).Idx → EReal) = V c main_v14 := by
  obtain ⟨-, -, -, -, -, -, e0, e1, -⟩ := idxOne t
  funext j
  show V c main_v14 (((cfg0.win 3).blk t).view.emb j) = V c main_v14 j
  refine congrArg _ (funext fun a => Fin.ext ?_)
  match a with
  | ⟨0, _⟩ => show win0_3.index t (0 : Fin 2) * 1 + 1 * (j 0).val = (j 0).val; rw [e0]; omega
  | ⟨1, _⟩ => show win0_3.index t (1 : Fin 2) * 32 + 1 * (j 1).val = (j 1).val; rw [e1]; omega

/-- The second weights' window holds the whole array at every point. -/
theorem wOneB (c : Dev nD) (t : Fin cfg0.N) :
    (iblk0 V c 4 t : (⟨2, ![32, 32]⟩ : Shape).Idx → EReal) = V c main_arg4 := by
  obtain ⟨-, -, -, -, -, -, -, -, e0, e1, -⟩ := idxOne t
  funext j
  show V c main_arg4 (((cfg0.win 4).blk t).view.emb j) = V c main_arg4 j
  refine congrArg _ (funext fun a => Fin.ext ?_)
  match a with
  | ⟨0, _⟩ => show win0_4.index t (0 : Fin 2) * 32 + 1 * (j 0).val = (j 0).val; rw [e0]; omega
  | ⟨1, _⟩ => show win0_4.index t (1 : Fin 2) * 32 + 1 * (j 1).val = (j 1).val; rw [e1]; omega

/-- The second bias row's window holds the whole row at every point. -/
theorem bOneB (c : Dev nD) (t : Fin cfg0.N) :
    (iblk0 V c 5 t : (⟨2, ![1, 32]⟩ : Shape).Idx → EReal) = V c main_v15 := by
  obtain ⟨-, -, -, -, -, -, -, -, -, -, e0, e1, -⟩ := idxOne t
  funext j
  show V c main_v15 (((cfg0.win 5).blk t).view.emb j) = V c main_v15 j
  refine congrArg _ (funext fun a => Fin.ext ?_)
  match a with
  | ⟨0, _⟩ => show win0_5.index t (0 : Fin 2) * 1 + 1 * (j 0).val = (j 0).val; rw [e0]; omega
  | ⟨1, _⟩ => show win0_5.index t (1 : Fin 2) * 32 + 1 * (j 1).val = (j 1).val; rw [e1]; omega

/-- What point `t` writes back is block `t` of the first layer of the whole arrays as the region finds them. -/
theorem flushedOne (c : Dev nD) (t : Fin cfg0.N) :
    (dat0 V c).flushed 6 t = ((cfg0.win 6).blk t).view.read (Elt Ideal)
      (layerOne (M := 100000) (K := 64) (N := 32) (P := 32) (V c main_arg0) (V c main_v13) (V c main_arg2) (V c main_v14) (V c main_arg4) (V c main_v15)) := by
  show (cfg0.win 6).cut (grid0.coords t) ((dat0 V c).after 6 t) = _
  rw [after0_6]
  unfold out0_6
  rw [View.canon_unit_zero hz]
  simp only [View.ld_unit_zero (S := S5000x64) hz, View.ld_unit_zero (S := S64x32) hz, View.ld_unit_zero (S := S1x32) hz,
    View.ld_unit_zero (S := S32x32) hz]
  rw [bodyOne]
  obtain ⟨-, -, -, -, -, -, -, -, -, -, -, -, e0, e1⟩ := idxOne t
  funext y
  show layerOne (M := 5000) (K := 64) (N := 32) (P := 32) (iblk0 V c 0 t) (iblk0 V c 1 t) (iblk0 V c 2 t) (iblk0 V c 3 t) (iblk0 V c 4 t) (iblk0 V c 5 t) y
    = layerOne (M := 100000) (K := 64) (N := 32) (P := 32) (V c main_arg0) (V c main_v13) (V c main_arg2) (V c main_v14) (V c main_arg4) (V c main_v15)
      (((cfg0.win 6).blk t).view.emb y)
  rw [wOneA V c t, bOneA V c t, wOneB V c t, bOneB V c t]
  refine layerOne_rows (M := 100000) (R := 5000) (K := 64) (N := 32) (P := 32) (5000 * t.val) (V c main_arg0) (V c main_v13)
    (iblk0 V c 0 t) (iblk0 V c 1 t) (V c main_arg2) (V c main_v14) (V c main_arg4) (V c main_v15)
    (nodeRowsOne V c t) (nbrRowsOne V c t) y (((cfg0.win 6).blk t).view.emb y) ?_ ?_
  · show win0_6.index t (0 : Fin 2) * 5000 + 1 * (y 0).val = 5000 * t.val + (y 0).val; rw [e0]; omega
  · show win0_6.index t (1 : Fin 2) * 32 + 1 * (y 1).val = (y 1).val; rw [e1]; omega

/-- An index of the output array is in point `t`'s block iff each coordinate is in the block's range on its axis. -/
theorem mem_blkOne (t : Fin cfg0.N) (i : S100000x32.Idx) :
    i ∈ ((cfg0.win 6).blk t).view.set ↔ ∀ a : Fin 2, win0_6.index t a * S5000x32.size a ≤ (i a).val ∧ (i a).val < win0_6.index t a * S5000x32.size a + S5000x32.size a := by
  show i ∈ ((View.whole main_v16).slice (win0_6.rect t)).set ↔ _
  rw [View.set_slice_whole, Rect.mem_set_unit]
  exact Iff.rfl

/-- Every row lies in the block of the point that its number divided by 5000 names. -/
theorem coverOne (i : S100000x32.Idx) :
    ∃ t : Fin cfg0.N, (cfg0.win 6).flush t = true ∧ i ∈ ((cfg0.win 6).blk t).view.set := by
  have hi0 : (i 0).val < 100000 := (i 0).isLt
  have hi1 : (i 1).val < 32 := (i 1).isLt
  have hN : cfg0.N = 20 := N_0
  have ht : (i 0).val / 5000 < cfg0.N := by rw [hN]; omega
  obtain ⟨-, -, -, -, -, -, -, -, -, -, -, -, e0, e1⟩ := idxOne ⟨(i 0).val / 5000, ht⟩
  refine ⟨⟨(i 0).val / 5000, ht⟩, flush0_6 _, ?_⟩
  rw [mem_blkOne]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, ht⟩ (1 : Fin 2) * 32 ≤ (i 1).val ∧ (i 1).val < win0_6.index ⟨(i 0).val / 5000, ht⟩ (1 : Fin 2) * 32 + 32
    rw [e1]; omega

/-- The output array after the run: the layer of the whole arrays as the region finds them. -/
theorem finalOne (c : Dev nD) : (dat0 V c).arrAt 6 cfg0.N = layerOne (M := 100000) (K := 64) (N := 32) (P := 32) (V c main_arg0) (V c main_v13) (V c main_arg2) (V c main_v14) (V c main_arg4) (V c main_v15) :=
  (dat0 V c).arrAt_eq_of_cover 6 _ (fun t _ => flushedOne V c t) coverOne

/-! ## The second kernel -/

/-- The printed index maps of the second kernel over its grid. -/
theorem idxTwo : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The hidden rows' block at point `t` is rows `5000 t, …` of the hidden node array. -/
theorem nodeRowsTwo (c : Dev nD) (t : Fin cfg1.N) (y : Fin 5000) (k : Fin 32) (hlt : 5000 * t.val + y.val < 100000) :
    iblk1 V c 0 t (ix2 y k) = V c main_v16 (ix2 (⟨5000 * t.val + y.val, hlt⟩ : Fin 100000) k) := by
  obtain ⟨e0, e1, -⟩ := idxTwo t
  show V c main_v16 (((cfg1.win 0).blk t).view.emb (ix2 y k)) = _
  refine congrArg _ (funext fun a => Fin.ext ?_)
  match a with
  | ⟨0, _⟩ => show win1_0.index t (0 : Fin 2) * 5000 + 1 * y.val = 5000 * t.val + y.val; rw [e0]; omega
  | ⟨1, _⟩ => show win1_0.index t (1 : Fin 2) * 32 + 1 * k.val = k.val; rw [e1]; omega

/-- The neighbour sums' block at point `t` is rows `5000 t, …` of the neighbour sums. -/
theorem nbrRowsTwo (c : Dev nD) (t : Fin cfg1.N) (y : Fin 5000) (k : Fin 32) (hlt : 5000 * t.val + y.val < 100000) :
    iblk1 V c 1 t (ix2 y k) = V c main_v26 (ix2 (⟨5000 * t.val + y.val, hlt⟩ : Fin 100000) k) := by
  obtain ⟨-, -, e0, e1, -⟩ := idxTwo t
  show V c main_v26 (((cfg1.win 1).blk t).view.emb (ix2 y k)) = _
  refine congrArg _ (funext fun a => Fin.ext ?_)
  match a with
  | ⟨0, _⟩ => show win1_1.index t (0 : Fin 2) * 5000 + 1 * y.val = 5000 * t.val + y.val; rw [e0]; omega
  | ⟨1, _⟩ => show win1_1.index t (1 : Fin 2) * 32 + 1 * k.val = k.val; rw [e1]; omega

/-- The third weights' window holds the whole array at every point. -/
theorem wTwo (c : Dev nD) (t : Fin cfg1.N) :
    (iblk1 V c 2 t : (⟨2, ![32, 64]⟩ : Shape).Idx → EReal) = V c main_arg6 := by
  obtain ⟨-, -, -, -, e0, e1, -⟩ := idxTwo t
  funext j
  show V c main_arg6 (((cfg1.win 2).blk t).view.emb j) = V c main_arg6 j
  refine congrArg _ (funext fun a => Fin.ext ?_)
  match a with
  | ⟨0, _⟩ => show win1_2.index t (0 : Fin 2) * 32 + 1 * (j 0).val = (j 0).val; rw [e0]; omega
  | ⟨1, _⟩ => show win1_2.index t (1 : Fin 2) * 64 + 1 * (j 1).val = (j 1).val; rw [e1]; omega

/-- The third bias row's window holds the whole row at every point. -/
theorem bTwo (c : Dev nD) (t : Fin cfg1.N) :
    (iblk1 V c 3 t : (⟨2, ![1, 64]⟩ : Shape).Idx → EReal) = V c main_v27 := by
  obtain ⟨-, -, -, -, -, -, e0, e1, -⟩ := idxTwo t
  funext j
  show V c main_v27 (((cfg1.win 3).blk t).view.emb j) = V c main_v27 j
  refine congrArg _ (funext fun a => Fin.ext ?_)
  match a with
  | ⟨0, _⟩ => show win1_3.index t (0 : Fin 2) * 1 + 1 * (j 0).val = (j 0).val; rw [e0]; omega
  | ⟨1, _⟩ => show win1_3.index t (1 : Fin 2) * 64 + 1 * (j 1).val = (j 1).val; rw [e1]; omega

/-- What point `t` writes back is block `t` of the second layer of the whole arrays as the region finds them. -/
theorem flushedTwo (c : Dev nD) (t : Fin cfg1.N) :
    (dat1 V c).flushed 4 t = ((cfg1.win 4).blk t).view.read (Elt Ideal)
      (layerTwo (M := 100000) (K := 32) (N := 64) (V c main_v16) (V c main_v26) (V c main_arg6) (V c main_v27)) := by
  show (cfg1.win 4).cut (grid1.coords t) ((dat1 V c).after 4 t) = _
  rw [after1_4]
  unfold out1_4
  rw [View.canon_unit_zero hz]
  simp only [View.ld_unit_zero (S := S5000x32) hz, View.ld_unit_zero (S := S32x64) hz, View.ld_unit_zero (S := S1x64) hz]
  rw [bodyTwo]
  obtain ⟨-, -, -, -, -, -, -, -, e0, e1⟩ := idxTwo t
  funext y
  show layerTwo (M := 5000) (K := 32) (N := 64) (iblk1 V c 0 t) (iblk1 V c 1 t) (iblk1 V c 2 t) (iblk1 V c 3 t) y
    = layerTwo (M := 100000) (K := 32) (N := 64) (V c main_v16) (V c main_v26) (V c main_arg6) (V c main_v27)
      (((cfg1.win 4).blk t).view.emb y)
  rw [wTwo V c t, bTwo V c t]
  refine layerTwo_rows (M := 100000) (R := 5000) (K := 32) (N := 64) (5000 * t.val) (V c main_v16) (V c main_v26)
    (iblk1 V c 0 t) (iblk1 V c 1 t) (V c main_arg6) (V c main_v27)
    (nodeRowsTwo V c t) (nbrRowsTwo V c t) y (((cfg1.win 4).blk t).view.emb y) ?_ ?_
  · show win1_4.index t (0 : Fin 2) * 5000 + 1 * (y 0).val = 5000 * t.val + (y 0).val; rw [e0]; omega
  · show win1_4.index t (1 : Fin 2) * 64 + 1 * (y 1).val = (y 1).val; rw [e1]; omega

/-- An index of the output array is in point `t`'s block iff each coordinate is in the block's range on its axis. -/
theorem mem_blkTwo (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v28).slice (win1_4.rect t)).set ↔ _
  rw [View.set_slice_whole, Rect.mem_set_unit]
  exact Iff.rfl

/-- Every row lies in the block of the point that its number divided by 5000 names. -/
theorem coverTwo (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨-, -, -, -, -, -, -, -, e0, e1⟩ := idxTwo ⟨(i 0).val / 5000, ht⟩
  refine ⟨⟨(i 0).val / 5000, ht⟩, flush1_4 _, ?_⟩
  rw [mem_blkTwo]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, ht⟩ (1 : Fin 2) * 64 ≤ (i 1).val ∧ (i 1).val < win1_4.index ⟨(i 0).val / 5000, ht⟩ (1 : Fin 2) * 64 + 64
    rw [e1]; omega

/-- The output array after the run: the layer of the whole arrays as the region finds them. -/
theorem finalTwo (c : Dev nD) : (dat1 V c).arrAt 4 cfg1.N = layerTwo (M := 100000) (K := 32) (N := 64) (V c main_v16) (V c main_v26) (V c main_arg6) (V c main_v27) :=
  (dat1 V c).arrAt_eq_of_cover 4 _ (fun t _ => flushedTwo V c t) coverTwo

end Cert.Gin

end
-- ==== Proof.KernelRun.lean ====
/-
  The kernel program's run with its result named.

  The program is four segments in a row: host operations, the first kernel over its grid, host operations, the second
  kernel over its grid. Every weakly fair execution ends with every buffer the host sees at the contents the last
  segment leaves; among them the result buffer, which therefore ends at the second kernel's output array as its
  write-backs leave it, while the arguments end as launched.
-/
import proofs.«167467_j20538533610166_2_alg».proof.Proof.Gen.KernelIdeal.Frame

set_option maxRecDepth 16384

noncomputable section

namespace Cert.KernelIdeal.RunOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at what the last
    segment leaves in it and the argument arrays as launched. -/
theorem run_out : θ_run defs (onTc (τ := τ) (main (F := F))) ⟨m, fun _ => 0, ρ⟩ (fun r => ∀ c : Dev nD,
      r.2.mem ((c.tc : Thread nD τ).loc main_v28) = W4 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v28 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunOut

end
-- ==== Proof.KernelValue.lean ====
/-
  The kernel program's result is the network function of its arguments.

  The first kernel's output array is the first layer of the node array and the neighbour sums the host made before it:
  the hidden node array. The host then takes the neighbour sums of that array, and the second kernel's output array is
  the second layer of the two: the network function of the argument arrays as launched.
-/
import proofs.«167467_j20538533610166_2_alg».proof.Proof.HostStretches
import proofs.«167467_j20538533610166_2_alg».proof.Proof.Blocks
import proofs.«167467_j20538533610166_2_alg».proof.Proof.KernelRun

set_option maxRecDepth 16384

noncomputable section

namespace Cert.Gin

open Idealize.ShloMosaic Idealize.ShloMosaic.TcCoe
open Idealize.SL Idealize.SL.Sem
open Cert.KernelIdeal Cert.KernelIdeal.Gen

variable (m : (ℓ : Loc nD τ sig) → Buf (Elt Ideal) ℓ) (ρ : Dev nD → PrngReg)

/-- The first kernel leaves the hidden node array. -/
theorem hidden_value (c : Dev nD) : W2 m ρ c (Proc.devRef .tc main_v16)
    = hiddenNodes (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) := by
  refine (W2_arr m ρ c 6).trans ((finalOne (V1 m ρ) c).trans ?_)
  rw [entryOne_nodes m ρ c, entryOne_nbr m ρ c, entryOne_w1 m ρ c, entryOne_b1 m ρ c, entryOne_w2 m ρ c, entryOne_b2 m ρ c]
  rfl

/-- The second kernel leaves the network function of the arguments in the result buffer. -/
theorem result_value (c : Dev nD) : W4 m ρ c (Proc.devRef .tc main_v28)
    = gin (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 4).trans ((finalTwo (V3 m ρ) c).trans ?_)
  rw [entryTwo_nodes m ρ c, entryTwo_nbr m ρ c, entryTwo_w3 m ρ c, entryTwo_b3 m ρ c, hidden_value m ρ c]
  rfl

/-- The kernel program's run: the result buffer ends at the network function of the arguments, the arguments as launched. -/
theorem kernel_run : θ_run defs (onTc (τ := τ) (main (F := Ideal))) ⟨m, fun _ => 0, ρ⟩ (fun r => ∀ c : Dev nD,
      r.2.mem ((c.tc : Thread nD τ).loc main_v28) = gin (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_value m ρ c), (h c).2⟩)
    (Cert.KernelIdeal.RunOut.run_out (F := Ideal) m ρ)

end Cert.Gin

end
-- ==== Proof.RefValue.lean ====
/-
  The reference program's result is the network function of its arguments.

  The reference spells every step on the host: the neighbour sum by a gather and an accumulating scatter, each linear
  layer by a `dot_general` plus the bias vector broadcast to one row and then over all rows, each floor by a maximum
  with a broadcast zero. Read on the extended reals these are the neighbour sum and the floored layers of the whole
  arrays, so the composed term is the network function.
-/
import proofs.«167467_j20538533610166_2_alg».proof.Proof.Gen.ReferenceIdeal.Run
import proofs.«167467_j20538533610166_2_alg».proof.Proof.GinValue

noncomputable section

namespace Cert.Gin

open Idealize.ShloMosaic Idealize.ShloMosaic.TcCoe Idealize.SL.Sem Cert.Mlp
open Cert.ReferenceIdeal Cert.ReferenceIdeal.Facts₀ Cert.ReferenceIdeal.Value

/-- The reference's spelling of the 64-wide neighbour sum. -/
theorem ref_nbrWide (ei : EdgeList) (x : FVec Ideal S100000x64 .f32) :
    Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (Host.gather gather_S100000x64_S1600000x1_S1600000x64_1_0_n_n_0_1_164 x (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000)))) = nbrWide ei x := rfl

/-- The reference's spelling of the 32-wide neighbour sum. -/
theorem ref_nbrNarrow (ei : EdgeList) (h : FVec Ideal S100000x32 .f32) :
    Host.scatterAdd scatter_S100000x32_S1600000x1_S1600000x32_1_0_0_1 (broadcastInDim S100000x32 ![] bcast_S_S100000x32 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (Host.gather gather_S100000x32_S1600000x1_S1600000x32_1_0_n_n_0_1_132 h (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000)))) = nbrNarrow ei h := rfl

/-- The reference's composed term, over any arguments, is the network function. -/
theorem ref_term (ei : EdgeList) (x : FVec Ideal S100000x64 .f32) (w1 : FVec Ideal S64x32 .f32) (b1 : FVec Ideal S32 .f32)
    (w2 : FVec Ideal S32x32 .f32) (b2 : FVec Ideal S32 .f32) (w3 : FVec Ideal S32x64 .f32) (b3 : FVec Ideal S64 .f32) :
    maximumf (addf (Host.dotGeneral dot_S100000x32_S32x64_S100000x64_1_0_0_1_n_n none (addf (maximumf (addf (Host.dotGeneral dot_S100000x32_S32x32_S100000x32_1_0_0_1_n_n none (maximumf (addf (Host.dotGeneral dot_S100000x64_S64x32_S100000x32_1_0_0_1_n_n none (addf x (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (Host.gather gather_S100000x64_S1600000x1_S1600000x64_1_0_n_n_0_1_164 x (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000)))))) w1) (broadcastInDim S100000x32 ![0, 1] bcast_S1x32_S100000x32_0_1 (broadcastInDim S1x32 ![1] bcast_S32_S1x32_1 b1))) (broadcastInDim S100000x32 ![] bcast_S_S100000x32 (constant S_ .f32 0x00000000#32))) w2) (broadcastInDim S100000x32 ![0, 1] bcast_S1x32_S100000x32_0_1 (broadcastInDim S1x32 ![1] bcast_S32_S1x32_1 b2))) (broadcastInDim S100000x32 ![] bcast_S_S100000x32 (constant S_ .f32 0x00000000#32))) (Host.scatterAdd scatter_S100000x32_S1600000x1_S1600000x32_1_0_0_1 (broadcastInDim S100000x32 ![] bcast_S_S100000x32 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (Host.gather gather_S100000x32_S1600000x1_S1600000x32_1_0_n_n_0_1_132 (maximumf (addf (Host.dotGeneral dot_S100000x32_S32x32_S100000x32_1_0_0_1_n_n none (maximumf (addf (Host.dotGeneral dot_S100000x64_S64x32_S100000x32_1_0_0_1_n_n none (addf x (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (Host.gather gather_S100000x64_S1600000x1_S1600000x64_1_0_n_n_0_1_164 x (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000)))))) w1) (broadcastInDim S100000x32 ![0, 1] bcast_S1x32_S100000x32_0_1 (broadcastInDim S1x32 ![1] bcast_S32_S1x32_1 b1))) (broadcastInDim S100000x32 ![] bcast_S_S100000x32 (constant S_ .f32 0x00000000#32))) w2) (broadcastInDim S100000x32 ![0, 1] bcast_S1x32_S100000x32_0_1 (broadcastInDim S1x32 ![1] bcast_S32_S1x32_1 b2))) (broadcastInDim S100000x32 ![] bcast_S_S100000x32 (constant S_ .f32 0x00000000#32))) (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000)))))) w3) (broadcastInDim S100000x64 ![0, 1] bcast_S1x64_S100000x64_0_1 (broadcastInDim S1x64 ![1] bcast_S64_S1x64_1 b3))) (broadcastInDim S100000x64 ![] bcast_S_S100000x64 (constant S_ .f32 0x00000000#32))
      = gin ei x w1 b1 w2 b2 w3 b3 := by
  rw [ref_nbrWide ei x]
  rw [host_layer_floor (M := 100000) (K := 64) (N := 32) (addf x (nbrWide ei x)) w1 b1 dot_S100000x64_S64x32_S100000x32_1_0_0_1_n_n rfl
    bcast_S_S100000x32 bcast_S32_S1x32_1 bcast_S1x32_S100000x32_0_1 Cert.KernelIdeal.Facts₀.shapeCasts_S32_S1x32]
  rw [host_layer_floor (M := 100000) (K := 32) (N := 32) _ w2 b2 dot_S100000x32_S32x32_S100000x32_1_0_0_1_n_n rfl
    bcast_S_S100000x32 bcast_S32_S1x32_1 bcast_S1x32_S100000x32_0_1 Cert.KernelIdeal.Facts₀.shapeCasts_S32_S1x32]
  rw [ref_nbrNarrow ei]
  rw [host_layer_floor (M := 100000) (K := 32) (N := 64) _ w3 b3 dot_S100000x32_S32x64_S100000x64_1_0_0_1_n_n rfl
    bcast_S_S100000x64 bcast_S64_S1x64_1 bcast_S1x64_S100000x64_0_1 Cert.KernelIdeal.Facts₀.shapeCasts_S64_S1x64]
  rfl

/-- The reference run's result is the network function of the launch contents of its arguments. -/
theorem ref_value (m : (ℓ : Loc nD τ sig) → Buf (Elt Ideal) ℓ) (c : Dev nD) :
    res_main_v40 (F := Ideal) m c = gin (m ((c.tc : Thread nD τ).loc main_arg1)) (m ((c.tc : Thread nD τ).loc main_arg0))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  unfold res_main_v40
  exact ref_term _ _ _ _ _ _ _ _

end Cert.Gin

end
-- ==== Proof.lean ====
/-
  The kernel and its reference compute one function of their arguments, on the extended reals.

  The network is two graph-isomorphism layers over a node array `x` and an edge list: with `nbr` the neighbour sum
  (every edge's source row added into its target row),

    hidden = max (max ((x + nbr x)·W1 + b1, 0)·W2 + b2, 0),     result = max ((hidden + nbr hidden)·W3 + b3, 0).

  The reference computes both layers on the host over the whole arrays. The kernel program computes the neighbour sums
  on the host with the very same operations, and each layer in a kernel that walks the node rows in twenty blocks of
  5000 rows: an entry of a layer depends on its own row of the nodes and of the neighbour sums only, so the blocks the
  kernels write back are the blocks of the layers of the whole arrays, and they cover every row. Narrowing a matrix
  operand to bf16 is the identity on the extended reals, and a matrix-unit product into a zero accumulator and the
  host's `dot_general` are the same sum; no step needs the inputs to be finite.

  The three frame claims are the generated frames and the reference's generated run; the idealization rewrote no
  operation, so its claim is trivial; the algebraic claim pairs the two runs at the network function.
-/
import proofs.«167467_j20538533610166_2_alg».proof.Defs
import proofs.«167467_j20538533610166_2_alg».proof.Proof.Gen.Kernel
import proofs.«167467_j20538533610166_2_alg».proof.Proof.Gen.Kernel.Frame
import proofs.«167467_j20538533610166_2_alg».proof.Proof.Gen.KernelIdeal
import proofs.«167467_j20538533610166_2_alg».proof.Proof.Gen.KernelIdeal.Frame
import proofs.«167467_j20538533610166_2_alg».proof.Proof.Gen.ReferenceIdeal
import proofs.«167467_j20538533610166_2_alg».proof.Proof.Gen.ReferenceIdeal.Run
import proofs.«167467_j20538533610166_2_alg».proof.Proof.Gen.Pre_finite_inputs
import proofs.«167467_j20538533610166_2_alg».proof.Proof.KernelValue
import proofs.«167467_j20538533610166_2_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The network function of equal arguments is equal. -/
theorem gin_congr {ei ei' : Cert.Gin.EdgeList} {x x' : FVec Ideal Cert.ReferenceIdeal.S100000x64 .f32}
    {w1 w1' : FVec Ideal Cert.ReferenceIdeal.S64x32 .f32} {b1 b1' : FVec Ideal Cert.ReferenceIdeal.S32 .f32}
    {w2 w2' : FVec Ideal Cert.ReferenceIdeal.S32x32 .f32} {b2 b2' : FVec Ideal Cert.ReferenceIdeal.S32 .f32}
    {w3 w3' : FVec Ideal Cert.ReferenceIdeal.S32x64 .f32} {b3 b3' : FVec Ideal Cert.ReferenceIdeal.S64 .f32}
    (hei : ei' = ei) (hx : x' = x) (hw1 : w1' = w1) (hb1 : b1' = b1) (hw2 : w2' = w2) (hb2 : b2' = b2) (hw3 : w3' = w3) (hb3 : b3' = b3) :
    Cert.Gin.gin ei' x' w1' b1' w2' b2' w3' b3' = Cert.Gin.gin ei x w1 b1 w2 b2 w3 b3 := by
  subst hei hx hw1 hb1 hw2 hb2 hw3 hb3
  rfl

/-- Both idealized programs end with the network function of the (agreeing) arguments in their result buffers. -/
theorem algebraic : Cert.algebraic_KernelIdeal_ReferenceIdeal := by
  intro m ρ m' ρ' _ hagree
  refine ⟨fun c => Cert.Gin.gin (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.Gin.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  exact (Cert.Gin.ref_value m' c).trans (gin_congr h1 h0 h2 h3 h4 h5 h6 h7)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
